-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S262144x16 : Shape := ⟨2, ![262144, 16]⟩
abbrev S64x16 : Shape := ⟨2, ![64, 16]⟩
abbrev S64 : Shape := ⟨1, ![64]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x2048x4096 .f32) (main_arg1 : FVec F S262144x16 .f32) (main_arg2 : FVec F S64x16 .f32) (main_arg3 : FVec F S64 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S8x2048x4096 : Shape := ⟨3, ![8, 2048, 4096]⟩
abbrev S262144x16 : Shape := ⟨2, ![262144, 16]⟩
abbrev S64x16 : Shape := ⟨2, ![64, 16]⟩
abbrev S64 : Shape := ⟨1, ![64]⟩
abbrev S4096 : Shape := ⟨1, ![4096]⟩
abbrev S16x64 : Shape := ⟨2, ![16, 64]⟩
abbrev S262144x64 : Shape := ⟨2, ![262144, 64]⟩
abbrev S1x64 : Shape := ⟨2, ![1, 64]⟩
abbrev S512x512x8x8 : Shape := ⟨4, ![512, 512, 8, 8]⟩
abbrev S512x8x512x8 : Shape := ⟨4, ![512, 8, 512, 8]⟩
abbrev S4096x4096 : Shape := ⟨2, ![4096, 4096]⟩
abbrev S16384x4096 : Shape := ⟨2, ![16384, 4096]⟩
abbrev S1x4096 : Shape := ⟨2, ![1, 4096]⟩
abbrev S256x4096 : Shape := ⟨2, ![256, 4096]⟩

abbrev nBuf : Space → Nat
  | .hbm => 18
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S262144x16, .f32⟩
  | .hbm, ⟨2, _⟩ => ⟨S64x16, .f32⟩
  | .hbm, ⟨3, _⟩ => ⟨S64, .f32⟩
  | .hbm, ⟨4, _⟩ => ⟨S4096, .f32⟩
  | .hbm, ⟨5, _⟩ => ⟨S16x64, .f32⟩
  | .hbm, ⟨6, _⟩ => ⟨S262144x64, .f32⟩
  | .hbm, ⟨7, _⟩ => ⟨S1x64, .f32⟩
  | .hbm, ⟨8, _⟩ => ⟨S262144x64, .f32⟩
  | .hbm, ⟨9, _⟩ => ⟨S262144x64, .f32⟩
  | .hbm, ⟨10, _⟩ => ⟨S512x512x8x8, .f32⟩
  | .hbm, ⟨11, _⟩ => ⟨S512x8x512x8, .f32⟩
  | .hbm, ⟨12, _⟩ => ⟨S4096x4096, .f32⟩
  | .hbm, ⟨13, _⟩ => ⟨S4096x4096, .bf16⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x16_S16x64_1_0 : S64x16.Transposes [1, 0] S16x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  shapeCasts_S262144x64_S512x512x8x8 : S262144x64.ShapeCasts S512x512x8x8
  transposes_S512x512x8x8_S512x8x512x8_1_3_0_2 : S512x512x8x8.Transposes [1, 3, 0, 2] S512x8x512x8
  shapeCasts_S512x8x512x8_S4096x4096 : S512x8x512x8.ShapeCasts S4096x4096
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S16384x4096_S8x2048x4096 : S16384x4096.ShapeCasts S8x2048x4096
  dot_S262144x16_S16x64_S262144x64_1_0_0_1_n_n_wf : DotDims.WF S262144x16 S16x64 S262144x64 [1] [0] [0] [1] [] []
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S262144x16_S16x64_S262144x64_1_0_0_1_n_n : DotDims S262144x16 S16x64 S262144x64 where
  lhsContracting := [1]
  rhsContracting := [0]
  lhsNonContracting := [0]
  rhsNonContracting := [1]
  lhsBatch := []
  rhsBatch := []
  wf := dot_S262144x16_S16x64_S262144x64_1_0_0_1_n_n_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_v9) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S262144x16 : Shape := ⟨2, ![262144, 16]⟩
abbrev S64x16 : Shape := ⟨2, ![64, 16]⟩
abbrev S64 : Shape := ⟨1, ![64]⟩
abbrev S4096 : Shape := ⟨1, ![4096]⟩
abbrev S16x64 : Shape := ⟨2, ![16, 64]⟩
abbrev S262144x64 : Shape := ⟨2, ![262144, 64]⟩
abbrev S1x64 : Shape := ⟨2, ![1, 64]⟩
abbrev S512x512x8x8 : Shape := ⟨4, ![512, 512, 8, 8]⟩
abbrev S512x8x512x8 : Shape := ⟨4, ![512, 8, 512, 8]⟩
abbrev S4096x4096 : Shape := ⟨2, ![4096, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S262144x16, .f32⟩
  | .hbm, ⟨2, _⟩ => ⟨S64x16, .f32⟩
  | .hbm, ⟨3, _⟩ => ⟨S64, .f32⟩
  | .hbm, ⟨4, _⟩ => ⟨S4096, .f32⟩
  | .hbm, ⟨5, _⟩ => ⟨S16x64, .f32⟩
  | .hbm, ⟨6, _⟩ => ⟨S262144x64, .f32⟩
  | .hbm, ⟨7, _⟩ => ⟨S1x64, .f32⟩
  | .hbm, ⟨8, _⟩ => ⟨S262144x64, .f32⟩
  | .hbm, ⟨9, _⟩ => ⟨S262144x64, .f32⟩
  | .hbm, ⟨10, _⟩ => ⟨S512x512x8x8, .f32⟩
  | .hbm, ⟨11, _⟩ => ⟨S512x8x512x8, .f32⟩
  | .hbm, ⟨12, _⟩ => ⟨S4096x4096, .f32⟩
  | .hbm, ⟨13, _⟩ => ⟨S8x2048x4096, .f32⟩
  | .hbm, ⟨14, _⟩ => ⟨S1x1x4096, .f32⟩
  | .hbm, ⟨15, _⟩ => ⟨S8x2048x4096, .f32⟩
  | .hbm, ⟨16, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  transposes_S64x16_S16x64_1_0 : S64x16.Transposes [1, 0] S16x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  shapeCasts_S262144x64_S512x512x8x8 : S262144x64.ShapeCasts S512x512x8x8
  transposes_S512x512x8x8_S512x8x512x8_0_2_1_3 : S512x512x8x8.Transposes [0, 2, 1, 3] S512x8x512x8
  shapeCasts_S512x8x512x8_S4096x4096 : S512x8x512x8.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S262144x16_S16x64_S262144x64_1_0_0_1_n_n_wf : DotDims.WF S262144x16 S16x64 S262144x64 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S262144x16_S16x64_S262144x64_1_0_0_1_n_n : DotDims S262144x16 S16x64 S262144x64 where
  lhsContracting := [1]
  rhsContracting := [0]
  lhsNonContracting := [0]
  rhsNonContracting := [1]
  lhsBatch := []
  rhsBatch := []
  wf := dot_S262144x16_S16x64_S262144x64_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  What both programs compute, as functions of arrays over the extended reals.

  A dense layer `y = x · wᵀ + bias` whose weight matrix `w` (4096 × 4096) is never given as such: it is
  cut into 512 × 512 blocks of 8 × 8 entries, and block `(β, γ)` is stored as the 64 numbers
  `D[β, γ, ·, ·]` of a four-axis array `D`. Entry `(o, i)` of `w` lies in block `(o / 8, i / 8)` at
  position `(o % 8, i % 8)` inside it, so `w[o, i] = D[o / 8, i / 8, o % 8, i % 8]` (`weightAt`), and

      linear x D bias [b, s, o] = Σ_i x[b, s, i] · D[o / 8, i / 8, o % 8, i % 8] + bias[o].

  `rowsTimes` is the same layer on flattened data: the rows of a 16384 × 4096 matrix against a weight
  matrix given in the transposed, input-major arrangement, plus one row of biases.
-/
import Idealize.ShloMosaic.PureOps.Ideal
import Idealize.ShloMosaic.Lib.ValueIdx

noncomputable section

open scoped BigOperators

namespace Cert.Spec

open Idealize.ShloMosaic Idealize.ShloMosaic.ValueIdx

/-- The activations: 8 batches of 2048 rows of 4096 features. -/
abbrev SAct : Shape := ⟨3, ![8, 2048, 4096]⟩
/-- The decoded weights: 512 × 512 blocks of 8 × 8 entries. -/
abbrev SDec : Shape := ⟨4, ![512, 512, 8, 8]⟩
/-- The decoded weights with the two input axes in front (the input-major arrangement, before flattening). -/
abbrev SDecT : Shape := ⟨4, ![512, 8, 512, 8]⟩
/-- One bias per output feature. -/
abbrev SBias : Shape := ⟨1, ![4096]⟩
/-- The activations with batch and row merged. -/
abbrev SRows : Shape := ⟨2, ![16384, 4096]⟩
/-- A square weight matrix. -/
abbrev SMat : Shape := ⟨2, ![4096, 4096]⟩
/-- The biases as a one-row matrix. -/
abbrev SBiasRow : Shape := ⟨2, ![1, 4096]⟩

/-- Where entry `(o, i)` of the weight matrix sits in the decoded array: block `(o / 8, i / 8)`,
    position `(o % 8, i % 8)`. -/
abbrev weightAt (o i : Fin 4096) : SDec.Idx :=
  ix4 (⟨o.val / 8, by omega⟩ : Fin 512) (⟨i.val / 8, by omega⟩ : Fin 512)
    (⟨o.val % 8, by omega⟩ : Fin 8) (⟨i.val % 8, by omega⟩ : Fin 8)

/-- The layer: output feature `o` of row `(b, s)` is the row's inner product with row `o` of the weight
    matrix, plus the feature's bias. -/
def linear (x : FVec Ideal SAct .f32) (D : FVec Ideal SDec .f32) (bias : FVec Ideal SBias .f32) : FVec Ideal SAct .f32 :=
  fun j => (∑ i : Fin 4096, (x (ix3 (j 0) (j 1) i) : EReal) * (D (weightAt (j 2) i) : EReal)) + bias (ix1 (j 2))

/-- Rows times an input-major weight matrix, plus a row of biases:
    `rowsTimes X W B [r, o] = Σ_i X[r, i] · W[i, o] + B[0, o]`. -/
def rowsTimes (X : FVec Ideal SRows .f32) (W : FVec Ideal SMat .bf16) (B : FVec Ideal SBiasRow .f32) : FVec Ideal SRows .f32 :=
  fun j => (∑ i : Fin 4096, (X (ix2 (j 0) i) : EReal) * (W (ix2 i (j 1)) : EReal)) + B (ix2 (0 : Fin 1) (j 1))

end Cert.Spec

end
-- ==== Proof.RefSide.lean ====
/-
  The reference computes the layer.

  After decoding, the reference permutes the decoded array to `[β, d, γ, c]` order and flattens it to the weight
  matrix `w[o, i] = D[o / 8, i / 8, o % 8, i % 8]`, contracts the activations' feature axis against the matrix's
  second axis, `Σ_i x[b, s, i] · w[o, i]`, and adds the bias of feature `o`, broadcast over batches and rows.
  Each of these operations read at one index renames indices only; put together they are `Spec.linear` of the
  activations, the decoded array and the biases. The decoding itself (the first six operations) is the same in
  both programs and stays one unopened term `val_main_v5`.
-/
import proofs.«140671_j180388626975_2_alg».proof.Proof.Gen.ReferenceIdeal.Read
import proofs.«140671_j180388626975_2_alg».proof.Proof.Spec

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- The product's left factor at contraction index `k` is the activation `(b, s, k)`. -/
theorem act_idx (b : Fin 8) (s : Fin 2048) (o k : Fin 4096) : lidx_main_v8 (ix3 b s o) k = ix3 b s k :=
  funext fun a => Fin.ext (by
    match a with
    | ⟨0, _⟩ => rfl
    | ⟨1, _⟩ => rfl
    | ⟨2, _⟩ => rfl)

/-- The product's right factor at contraction index `k` is entry `(o, k)` of the weight matrix, which the
    flattening and the permutation place at `weightAt o k` of the decoded array: with `n = o · 4096 + k`,
    `n / 32768 = o / 8`, `n / 8 % 512 = k / 8`, `n / 4096 % 8 = o % 8` and `n % 8 = k % 8`. -/
theorem weight_idx (b : Fin 8) (s : Fin 2048) (o k : Fin 4096) :
    idx_main_v6 (idx_main_v7 (ridx_main_v8 (ix3 b s o) k)) = weightAt o k :=
  funext fun a => Fin.ext (by
    match a with
    | ⟨0, _⟩ => show (o.val * 4096 + k.val) / 32768 = o.val / 8; omega
    | ⟨1, _⟩ => show (o.val * 4096 + k.val) / 8 % 512 = k.val / 8; omega
    | ⟨2, _⟩ => show (o.val * 4096 + k.val) / 4096 % 8 = o.val % 8; omega
    | ⟨3, _⟩ => show (o.val * 4096 + k.val) % 8 = k.val % 8; omega)

/-- The broadcast bias at `(b, s, o)` is the bias of feature `o`. -/
theorem bias_idx (b : Fin 8) (s : Fin 2048) (o : Fin 4096) : idx_main_v9 (idx_main_v10 (ix3 b s o)) = ix1 o :=
  funext fun a => Fin.ext (by
    match a with
    | ⟨0, _⟩ => rfl)

/-- The reference's result is the layer of its activations, its decoded array and its biases. -/
theorem reference_eq_linear (x0 : FVec Ideal S8x2048x4096 .f32) (x1 : FVec Ideal S262144x16 .f32) (x2 : FVec Ideal S64x16 .f32)
    (x3 : FVec Ideal S64 .f32) (x4 : FVec Ideal S4096 .f32) :
    val_main_v11 (F := Ideal) x0 x1 x2 x3 x4 = linear x0 (val_main_v5 (F := Ideal) x1 x2 x3) x4 := by
  funext j
  obtain ⟨b, s, o, rfl⟩ : ∃ (b : Fin 8) (s : Fin 2048) (o : Fin 4096), j = ix3 b s o := ⟨j 0, j 1, j 2, eq_ix3 j⟩
  rw [val_main_v11_apply, val_main_v8_apply, val_main_v10_apply, val_main_v9_apply, bias_idx]
  show (∑ k : Fin 4096, (x0 (lidx_main_v8 (ix3 b s o) k) : EReal) * (val_main_v7 (F := Ideal) x1 x2 x3 (ridx_main_v8 (ix3 b s o) k) : EReal))
      + x4 (ix1 o)
    = (∑ i : Fin 4096, (x0 (ix3 b s i) : EReal) * (val_main_v5 (F := Ideal) x1 x2 x3 (weightAt o i) : EReal)) + x4 (ix1 o)
  refine congrArg (· + x4 (ix1 o)) (Finset.sum_congr rfl fun k _ => ?_)
  rw [val_main_v7_apply, val_main_v6_apply, act_idx, weight_idx]

end Cert.ReferenceIdeal.RefValue

end
-- ==== Proof.Body.lean ====
/-
  What the kernel body stores, read at one entry.

  At every grid point the body loads a block of 256 rows of the flattened activations, the whole input-major
  weight matrix and the row of biases, multiplies the rows by the matrix into a zero accumulator, and adds the
  biases to every row. On extended reals the product into zero is the plain sum over the contracted axis (no
  rounding, no order), narrowing a factor to a shorter float format changes nothing, and the shape casts are
  between equal shapes. So entry `(p, q)` of what is stored is `Σ_k a[p, k] · w[k, q] + β[0, q]`.
-/
import proofs.«140671_j180388626975_2_alg».proof.Proof.Gen.KernelIdeal.Skeleton
import proofs.«140671_j180388626975_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- The product's left operand index on the row axis is the output's row … -/
theorem lhs_row (i : S256x4096.Idx) (q : dot_S256x4096_S4096x4096_S256x4096_1_0_0_1_n_n.contr.Idx) : (dot_S256x4096_S4096x4096_S256x4096_1_0_0_1_n_n.lhsIdx i q 0).val = (i 0).val := by
  unfold DotDims.lhsIdx
  rw [dif_neg (show ¬(0 : Fin S256x4096.rank) ∈ dot_S256x4096_S4096x4096_S256x4096_1_0_0_1_n_n.lhsBatch by decide),
    dif_pos (show (0 : Fin S256x4096.rank) ∈ dot_S256x4096_S4096x4096_S256x4096_1_0_0_1_n_n.lhsNonContracting by decide)]
  rfl
/-- … and on the contracted axis the contraction coordinate. -/
theorem lhs_contr (i : S256x4096.Idx) (q : dot_S256x4096_S4096x4096_S256x4096_1_0_0_1_n_n.contr.Idx) : (dot_S256x4096_S4096x4096_S256x4096_1_0_0_1_n_n.lhsIdx i q 1).val = (q ⟨0, by decide⟩).val :=
  dot_S256x4096_S4096x4096_S256x4096_1_0_0_1_n_n.lhsIdx_val_of_single rfl i q
/-- The right operand index on the contracted axis is the contraction coordinate … -/
theorem rhs_contr (i : S256x4096.Idx) (q : dot_S256x4096_S4096x4096_S256x4096_1_0_0_1_n_n.contr.Idx) : (dot_S256x4096_S4096x4096_S256x4096_1_0_0_1_n_n.rhsIdx i q 0).val = (q ⟨0, by decide⟩).val :=
  dot_S256x4096_S4096x4096_S256x4096_1_0_0_1_n_n.rhsIdx_val_of_single rfl i q
/-- … and on the column axis the output's column. -/
theorem rhs_col (i : S256x4096.Idx) (q : dot_S256x4096_S4096x4096_S256x4096_1_0_0_1_n_n.contr.Idx) : (dot_S256x4096_S4096x4096_S256x4096_1_0_0_1_n_n.rhsIdx i q 1).val = (i 1).val := by
  unfold DotDims.rhsIdx
  rw [dif_neg (show ¬(1 : Fin S4096x4096.rank) ∈ dot_S256x4096_S4096x4096_S256x4096_1_0_0_1_n_n.rhsBatch by decide),
    dif_pos (show (1 : Fin S4096x4096.rank) ∈ dot_S256x4096_S4096x4096_S256x4096_1_0_0_1_n_n.rhsNonContracting by decide)]
  rfl

/-- Rows times matrix into the zero accumulator, at `(p, q)`: the sum over the 4096 contracted positions. -/
theorem product_apply (a : FVec Ideal S256x4096 .bf16) (w : FVec Ideal S4096x4096 .bf16) (p : Fin 256) (q : Fin 4096) :
    matmul dot_S256x4096_S4096x4096_S256x4096_1_0_0_1_n_n none a w (constant (F := Ideal) S256x4096 .f32 0x00000000#32) (ix2 p q)
      = ∑ k : Fin 4096, (a (ix2 p k) : EReal) * (w (ix2 k q) : EReal) := by
  simp only [matmul]
  rw [Ideal.matmul_constant_zero_apply, ← Equiv.sum_comp (contrEquiv1 dot_S256x4096_S4096x4096_S256x4096_1_0_0_1_n_n 4096 rfl rfl).symm]
  refine Finset.sum_congr rfl fun k _ => ?_
  have hk := contrEquiv1_symm_val dot_S256x4096_S4096x4096_S256x4096_1_0_0_1_n_n 4096 rfl rfl k
  have el : dot_S256x4096_S4096x4096_S256x4096_1_0_0_1_n_n.lhsIdx (ix2 p q) ((contrEquiv1 dot_S256x4096_S4096x4096_S256x4096_1_0_0_1_n_n 4096 rfl rfl).symm k) = ix2 p k :=
    funext fun ax => Fin.ext (by
      match ax with
      | ⟨0, _⟩ => exact lhs_row _ _
      | ⟨1, _⟩ => exact (lhs_contr _ _).trans hk)
  have er : dot_S256x4096_S4096x4096_S256x4096_1_0_0_1_n_n.rhsIdx (ix2 p q) ((contrEquiv1 dot_S256x4096_S4096x4096_S256x4096_1_0_0_1_n_n 4096 rfl rfl).symm k) = ix2 k q :=
    funext fun ax => Fin.ext (by
      match ax with
      | ⟨0, _⟩ => exact (rhs_contr _ _).trans hk
      | ⟨1, _⟩ => exact rhs_col _ _)
  rw [el, er]

/-- The stored value at `(p, q)`: row `p` of the loaded activations against column `q` of the loaded matrix,
    plus the loaded bias of column `q`. -/
theorem stored_apply (a : Vec Ideal S256x4096 .f32) (w : Vec Ideal S4096x4096 .bf16) (β : Vec Ideal S1x4096 .f32)
    (p : Fin 256) (q : Fin 4096) :
    k0_pay1 (F := Ideal) a w β (ix2 p q)
      = (∑ k : Fin 4096, (a (ix2 p k) : EReal) * (w (ix2 k q) : EReal)) + β (ix2 (0 : Fin 1) q) := by
  unfold k0_pay1
  show matmul dot_S256x4096_S4096x4096_S256x4096_1_0_0_1_n_n none (truncf .bf16 (shapeCast S256x4096 a shapeCasts_S256x4096_S256x4096) bitsLt_bf16_f32)
        (shapeCast S4096x4096 w shapeCasts_S4096x4096_S4096x4096) (constant (F := Ideal) S256x4096 .f32 0x00000000#32) (ix2 p q)
      + broadcastTo S256x4096 (shapeCast S1x4096 β shapeCasts_S1x4096_S1x4096) broadcasts_S1x4096_S256x4096 (ix2 p q) = _
  rw [product_apply, broadcastTo_1b_ab_apply, shapeCast_self, shapeCast_self, shapeCast_self]
  rfl

/-- If the loaded row `p` is row `r` of a matrix `X`, the loaded weights are `W` along column `q` and the loaded bias
    of column `q` is `B`'s, then the stored value at `(p, q)` is `rowsTimes X W B` at `(r, q)`. -/
theorem stored_eq_rowsTimes (a : Vec Ideal S256x4096 .f32) (w : Vec Ideal S4096x4096 .bf16) (β : Vec Ideal S1x4096 .f32)
    (X : FVec Ideal Spec.SRows .f32) (W : FVec Ideal Spec.SMat .bf16) (B : FVec Ideal Spec.SBiasRow .f32)
    (p : Fin 256) (q : Fin 4096) (r : Fin 16384)
    (hX : ∀ k : Fin 4096, a (ix2 p k) = X (ix2 r k)) (hW : ∀ k : Fin 4096, w (ix2 k q) = W (ix2 k q))
    (hB : β (ix2 (0 : Fin 1) q) = B (ix2 (0 : Fin 1) q)) :
    k0_pay1 (F := Ideal) a w β (ix2 p q) = Spec.rowsTimes X W B (ix2 r q) := by
  rw [stored_apply, hB]
  show _ = (∑ i : Fin 4096, (X (ix2 r i) : EReal) * (W (ix2 i q) : EReal)) + B (ix2 (0 : Fin 1) q)
  refine congrArg (· + B (ix2 (0 : Fin 1) q)) (Finset.sum_congr rfl fun k _ => ?_)
  rw [hX k, hW k]

end Cert.KernelIdeal.Body

end
-- ==== Proof.Blocks.lean ====
/-
  From what each grid point writes back to the whole result array.

  Grid point `t` (of 64) works on rows `256 t … 256 t + 255` of the flattened activations — its first window's
  block index on the row axis is `t`, the output window's too — while the weight matrix and the bias row are
  the same whole block at every point. By the body's value at an entry, what point `t` writes back is therefore
  rows `256 t …` of ONE whole-array function, `Spec.rowsTimes` of the three arrays the region was entered with.
  Row `r` of the result lies in the block of point `r / 256`, so the 64 blocks cover the array and the array ends
  holding that function.
-/
import proofs.«140671_j180388626975_2_alg».proof.Proof.Gen.KernelIdeal.Frame
import proofs.«140671_j180388626975_2_alg».proof.Proof.Body
import proofs.«140671_j180388626975_2_alg».proof.Proof.Spec
import Idealize.ShloMosaic.Lib.Pipeline.Value

noncomputable section

open scoped BigOperators

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The body's rectangles start at the origin. -/
theorem origin : (![0, 0] : Fin 2 → Nat) = fun _ => 0 := funext fun a => by fin_cases a <;> rfl

/-- The index maps over the 64 points: the activations' block moves with the output's along the rows and both
    stay in column block 0; the weights and the biases never move; the output's row block is at most 63. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 ∧ win0_3.index t (1 : Fin 2) = 0 :=
  (by decide +kernel : ∀ t : Fin grid0.N, _)

/-- Every one of the 64 row blocks is some point's. -/
theorem index_onto : ∀ q0 : Fin 64, ∃ t : Fin cfg0.N, win0_3.index t = ![q0.val, 0] :=
  (by decide +kernel : ∀ q0 : Fin 64, ∃ t : Fin grid0.N, win0_3.index t = ![q0.val, 0])

/-- Entry `(p, k)` of the activations' block at point `t` is entry `(r, k)` of the flattened activations, `r` the
    row `p` of the output's row block. -/
theorem rows_block (c : Dev nD) (t : Fin cfg0.N) (p : Fin 256) (k : Fin 4096) (r : Fin 16384)
    (hr : r.val = win0_3.index t (0 : Fin 2) * 256 + p.val) :
    iblk m c 0 t (ix2 p k) = V m c main_v9 (ix2 r k) := by
  obtain ⟨e0, e1, -⟩ := index_facts t
  show V m c main_v9 (((cfg0.win 0).blk t).view.emb (ix2 p k)) = V m c main_v9 (ix2 r k)
  have h : ((cfg0.win 0).blk t).view.emb (ix2 p k) = ix2 r k := by
    funext a; apply Fin.ext
    match a with
    | ⟨0, _⟩ => show win0_0.index t (0 : Fin 2) * 256 + 1 * p.val = r.val; omega
    | ⟨1, _⟩ => show win0_0.index t (1 : Fin 2) * 4096 + 1 * k.val = k.val; omega
  rw [h]

/-- The weights' block at every point is the whole matrix. -/
theorem weights_block (c : Dev nD) (t : Fin cfg0.N) (k q : Fin 4096) :
    iblk m c 1 t (ix2 k q) = V m c main_v8 (ix2 k q) := by
  obtain ⟨-, -, e2, e3, -⟩ := index_facts t
  show V m c main_v8 (((cfg0.win 1).blk t).view.emb (ix2 k q)) = V m c main_v8 (ix2 k q)
  have h : ((cfg0.win 1).blk t).view.emb (ix2 k q) = ix2 k q := by
    funext a; apply Fin.ext
    match a with
    | ⟨0, _⟩ => show win0_1.index t (0 : Fin 2) * 4096 + 1 * k.val = k.val; omega
    | ⟨1, _⟩ => show win0_1.index t (1 : Fin 2) * 4096 + 1 * q.val = q.val; omega
  rw [h]

/-- The biases' block at every point is the whole row. -/
theorem bias_block (c : Dev nD) (t : Fin cfg0.N) (u : Fin 1) (q : Fin 4096) :
    iblk m c 2 t (ix2 u q) = V m c main_v10 (ix2 u q) := by
  obtain ⟨-, -, -, -, e4, e5, -⟩ := index_facts t
  show V m c main_v10 (((cfg0.win 2).blk t).view.emb (ix2 u q)) = V m c main_v10 (ix2 u q)
  have h : ((cfg0.win 2).blk t).view.emb (ix2 u q) = ix2 u q := by
    funext a; apply Fin.ext
    match a with
    | ⟨0, _⟩ => show win0_2.index t (0 : Fin 2) * 1 + 1 * u.val = u.val; omega
    | ⟨1, _⟩ => show win0_2.index t (1 : Fin 2) * 4096 + 1 * q.val = q.val; omega
  rw [h]

/-- What point `t` writes back is its block of rows of `rowsTimes` of the three entry arrays. -/
theorem flushed_eq (c : Dev nD) (t : Fin cfg0.N) :
    (dats m 0 c).flushed 3 t
      = ((cfg0.win 3).blk t).view.read (Elt Ideal) (Spec.rowsTimes (V m c main_v9) (V m c main_v8) (V m c main_v10)) := by
  show (cfg0.win 3).cut (grid0.coords t) ((dats m 0 c).after 3 t) = _
  rw [after0_3]
  unfold out0_3
  rw [View.canon_unit_zero origin]
  simp only [View.ld_unit_zero (S := S256x4096) origin, View.ld_unit_zero (S := S4096x4096) origin,
    View.ld_unit_zero (S := S1x4096) origin]
  funext j
  obtain ⟨p, q, rfl⟩ : ∃ (p : Fin 256) (q : Fin 4096), j = ix2 p q := ⟨j 0, j 1, eq_ix2 j⟩
  obtain ⟨-, -, -, -, -, -, e6, e7⟩ := index_facts t
  have hemb : ((cfg0.win 3).blk t).view.emb (ix2 p q)
      = ix2 (⟨win0_3.index t (0 : Fin 2) * 256 + p.val, by omega⟩ : Fin 16384) q := by
    funext a; apply Fin.ext
    match a with
    | ⟨0, _⟩ => show win0_3.index t (0 : Fin 2) * 256 + 1 * p.val = win0_3.index t (0 : Fin 2) * 256 + p.val; omega
    | ⟨1, _⟩ => show win0_3.index t (1 : Fin 2) * 4096 + 1 * q.val = q.val; omega
  show k0_pay1 (F := Ideal) (iblk m c 0 t) (iblk m c 1 t) (iblk m c 2 t) (ix2 p q)
    = Spec.rowsTimes (V m c main_v9) (V m c main_v8) (V m c main_v10) (((cfg0.win 3).blk t).view.emb (ix2 p q))
  rw [hemb]
  exact Body.stored_eq_rowsTimes (iblk m c 0 t) (iblk m c 1 t) (iblk m c 2 t) (V m c main_v9) (V m c main_v8) (V m c main_v10)
    p q (⟨win0_3.index t (0 : Fin 2) * 256 + p.val, by omega⟩ : Fin 16384)
    (fun k => rows_block m c t p k (⟨win0_3.index t (0 : Fin 2) * 256 + p.val, by omega⟩ : Fin 16384) rfl)
    (fun k => weights_block m c t k q) (bias_block m c t (0 : Fin 1) q)

/-- An index of the result array is in point `t`'s block iff each coordinate is in the block's range. -/
theorem mem_block (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v11).slice (win0_3.rect t)).set ↔ _
  rw [View.set_slice_whole, Rect.mem_set_unit]
  exact Iff.rfl

/-- Every index of the result array is in the block of the point whose row block holds its row. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := index_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The result array after the region: `rowsTimes` of the three entry arrays. -/
theorem result_array (c : Dev nD) :
    (dats m 0 c).arrAt 3 cfg0.N = Spec.rowsTimes (V m c main_v9) (V m c main_v8) (V m c main_v10) :=
  (dats m 0 c).arrAt_eq_of_cover 3 _ (fun t _ => flushed_eq m c t) covered

end Cert.KernelIdeal.Blocks

end
-- ==== Proof.Entry.lean ====
/-
  The arrays the kernel's region is entered with.

  Before the region the host decodes the weights — `decoded`: latent vectors times the transposed decoder
  matrix, plus the decoder bias broadcast over blocks, viewed as 512 × 512 blocks of 8 × 8 — then permutes and
  flattens the decoded array to the input-major weight matrix and narrows it to the short float format; it
  merges batch and row of the activations; and it lays the biases out as one row. The region therefore
  finds exactly these three terms of the launch memory in the arrays of its three input windows. The decoding
  is kept as ONE term: the reference decodes by the same operations, and nothing about the decoded numbers
  is needed beyond their being the same on both sides.
-/
import proofs.«140671_j180388626975_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen
open Idealize.ShloMosaic Idealize.ShloMosaic.TcCoe Idealize.SL.Sem Idealize.ShloMosaic.StableHlo

/-- The decoded weights as a function of the latent vectors, the decoder matrix and the decoder bias. -/
def decoded (lat : FVec Ideal S262144x16 .f32) (decW : FVec Ideal S64x16 .f32) (decB : FVec Ideal S64 .f32) :
    FVec Ideal S512x512x8x8 .f32 :=
  shapeCast S512x512x8x8
    (addf (Host.dotGeneral (F := Ideal) dot_S262144x16_S16x64_S262144x64_1_0_0_1_n_n none lat
        (transpose S16x64 [1, 0] decW transposes_S64x16_S16x64_1_0))
      (broadcastInDim S262144x64 ![0, 1] bcast_S1x64_S262144x64_0_1 (broadcastInDim S1x64 ![1] bcast_S64_S1x64_1 decB)))
    shapeCasts_S262144x64_S512x512x8x8

variable (m : (ℓ : Loc nD τ sig) → Buf (Elt Ideal) ℓ)

/-- The first window's array: the activations with batch and row merged. -/
theorem rows_entry (c : Dev nD) :
    (V m c main_v9 : FVec Ideal S16384x4096 .f32)
      = shapeCast S16384x4096 (m ((c : Thread nD τ).loc main_arg0)) shapeCasts_S8x2048x4096_S16384x4096 := by
  show StableHlo.after hostOps0 (fun b => m (c, b)) (Proc.devRef .tc main_v9) = _
  after_results
  rfl

/-- The second window's array: the decoded weights, input axes first, flattened and narrowed. -/
theorem weights_entry (c : Dev nD) :
    (V m c main_v8 : FVec Ideal S4096x4096 .bf16)
      = truncf .bf16 (shapeCast S4096x4096 (transpose S512x8x512x8 [1, 3, 0, 2]
          (decoded (m ((c : Thread nD τ).loc main_arg1)) (m ((c : Thread nD τ).loc main_arg2)) (m ((c : Thread nD τ).loc main_arg3)))
          transposes_S512x512x8x8_S512x8x512x8_1_3_0_2) shapeCasts_S512x8x512x8_S4096x4096) bitsLt_bf16_f32 := by
  show StableHlo.after hostOps0 (fun b => m (c, b)) (Proc.devRef .tc main_v8) = _
  after_results
  rfl

/-- The third window's array: the biases as one row. -/
theorem bias_entry (c : Dev nD) :
    (V m c main_v10 : FVec Ideal S1x4096 .f32)
      = shapeCast S1x4096 (m ((c : Thread nD τ).loc main_arg4)) shapeCasts_S4096_S1x4096 := by
  show StableHlo.after hostOps0 (fun b => m (c, b)) (Proc.devRef .tc main_v10) = _
  after_results
  rfl

end Cert.KernelIdeal.Entry

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Arrange.lean ====
/-
  The kernel's arrangement of the layer is the layer.

  The kernel merges batch and row of the activations, so row `r = b · 2048 + s` of its 16384 × 4096 matrix is
  row `(b, s)` of `x`; it permutes the decoded array to put the two INPUT axes first, `T[γ, c, β, d] = D[β, γ, d, c]`,
  and flattens pairs of axes, so its weight matrix is `W[i, o] = T[i / 8, i % 8, o / 8, o % 8] = D[o / 8, i / 8, o % 8, i % 8]`
  — entry `(o, i)` of the layer's weights, read in the transposed arrangement; it lays the biases out as one row;
  and it splits the merged rows of the result again. Read index by index this is `Spec.linear`: no arithmetic
  is rearranged, only indices are renamed. (Rounding a weight to a narrower float format is the identity on
  extended reals.)
-/
import proofs.«140671_j180388626975_2_alg».proof.Proof.Spec
import proofs.«140671_j180388626975_2_alg».proof.Proof.LibLayout
import Idealize.ShloMosaic.Lib.Pipeline.Value
import Idealize.ShloMosaic.Lib.ValueLayout

noncomputable section

open scoped BigOperators

namespace Cert.Spec

open Idealize.ShloMosaic Idealize.ShloMosaic.ValueIdx

/-- The input-major weight matrix read at `(i, o)`: flattening `[512, 8, 512, 8]` to `[4096, 4096]` sends
    `(i / 8, i % 8, o / 8, o % 8)` to `(i, o)`, and the permutation `[1, 3, 0, 2]` reads the decoded array with
    its coordinates 1, 3, 0, 2 at those four values — at `weightAt o i`. -/
theorem weightT_apply (D : FVec Ideal SDec .f32) (hT : SDec.Transposes [1, 3, 0, 2] SDecT) (hW : SDecT.ShapeCasts SMat)
    (i o : Fin 4096) :
    shapeCast SMat (transpose SDecT [1, 3, 0, 2] D hT) hW (ix2 i o) = D (weightAt o i) := by
  refine (shapeCast_apply (transpose SDecT [1, 3, 0, 2] D hT) hW (ix2 i o)
    (ix4 (⟨i.val / 8, by omega⟩ : Fin 512) (⟨i.val % 8, by omega⟩ : Fin 8)
      (⟨o.val / 8, by omega⟩ : Fin 512) (⟨o.val % 8, by omega⟩ : Fin 8)) ?_).trans ?_
  · rw [Shape.rowMajor_val_four, Shape.rowMajor_val_two]
    show ((i.val / 8 * 8 + i.val % 8) * 512 + o.val / 8) * 8 + o.val % 8 = i.val * 4096 + o.val
    omega
  · exact transpose_apply [1, 3, 0, 2] D hT _ (weightAt o i) (fun b => match b with
      | ⟨0, _⟩ => rfl
      | ⟨1, _⟩ => rfl
      | ⟨2, _⟩ => rfl
      | ⟨3, _⟩ => rfl)

/-- The kernel's result, with every rearrangement it makes around the product, is the layer. -/
theorem arranged_eq_linear (x : FVec Ideal SAct .f32) (D : FVec Ideal SDec .f32) (bias : FVec Ideal SBias .f32)
    (hx : SAct.ShapeCasts SRows) (hT : SDec.Transposes [1, 3, 0, 2] SDecT) (hW : SDecT.ShapeCasts SMat)
    (hlt : FTy.bf16.bits < FTy.f32.bits) (hb : SBias.ShapeCasts SBiasRow) (ho : SRows.ShapeCasts SAct) :
    shapeCast SAct (rowsTimes (shapeCast SRows x hx)
        (truncf .bf16 (shapeCast SMat (transpose SDecT [1, 3, 0, 2] D hT) hW) hlt) (shapeCast SBiasRow bias hb)) ho
      = linear x D bias := by
  funext j
  obtain ⟨b, s, o, rfl⟩ : ∃ (b : Fin 8) (s : Fin 2048) (o : Fin 4096), j = ix3 b s o := ⟨j 0, j 1, j 2, eq_ix3 j⟩
  refine (Cert.LibLayout.shapeCast_nc_abc_apply _ ho b s o (⟨b.val * 2048 + s.val, by omega⟩ : Fin 16384) rfl).trans ?_
  show (∑ i : Fin 4096, (shapeCast SRows x hx (ix2 (⟨b.val * 2048 + s.val, by omega⟩ : Fin 16384) i) : EReal)
        * (shapeCast SMat (transpose SDecT [1, 3, 0, 2] D hT) hW (ix2 i o) : EReal))
      + shapeCast SBiasRow bias hb (ix2 (0 : Fin 1) o)
    = (∑ i : Fin 4096, (x (ix3 b s i) : EReal) * (D (weightAt o i) : EReal)) + bias (ix1 o)
  rw [shapeCast_a_1a_apply bias hb (0 : Fin 1) o]
  refine congrArg (· + bias (ix1 o)) (Finset.sum_congr rfl fun i _ => ?_)
  rw [Cert.LibLayout.shapeCast_abc_nc_apply x hx b s i (⟨b.val * 2048 + s.val, by omega⟩ : Fin 16384) rfl,
    weightT_apply D hT hW i o]

end Cert.Spec

end
-- ==== Proof.KernelRun.lean ====
/-
  The kernel's whole run, with its result named.

  After the region the host only splits the merged rows of the result array again. The result array holds
  `Spec.rowsTimes` of the three arrays the region was entered with (the blocks cover it), those three arrays are
  the rearranged activations, decoded weights and biases, and the whole chain of rearrangements around the
  product is `Spec.linear`. So every weakly fair execution ends with the result buffer at
  `linear x (decoded …) bias` of the launch memory, and with the five argument arrays as launched.
-/
import proofs.«140671_j180388626975_2_alg».proof.Proof.Blocks
import proofs.«140671_j180388626975_2_alg».proof.Proof.Entry
import proofs.«140671_j180388626975_2_alg».proof.Proof.Arrange

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The layer of the launch memory on core `c`. -/
abbrev layer (c : Dev nD) : FVec Ideal S8x2048x4096 .f32 :=
  Spec.linear (m ((c : Thread nD τ).loc main_arg0)) (Entry.decoded (m ((c : Thread nD τ).loc main_arg1)) (m ((c : Thread nD τ).loc main_arg2)) (m ((c : Thread nD τ).loc main_arg3))) (m ((c : Thread nD τ).loc main_arg4))

/-- The result buffer after the host's last operation is the layer. -/
theorem result_eq (c : Dev nD) :
    Pipeline.afterTail₀ cfgs (dats m) 0 (V0 m) [hostOps1] c main_v12 = layer m c := by
  unfold Pipeline.afterTail₀
  show StableHlo.after hostOps1 _ (Proc.devRef .tc main_v12) = _
  after_results
  have hw := (Pipeline.withArrays_arr spec0 launch0.win.arr_inj c (V0 m c)
    (fun w => (dats m 0 c).arrAt w cfg0.N) 3).trans (Blocks.result_array m c)
  show shapeCast S8x2048x4096 (Pipeline.withArrays spec0 c (V0 m c) (fun w => (dats m 0 c).arrAt w cfg0.N)
      (Proc.devRef .tc (Pipeline.arrRef spec0 3))) shapeCasts_S16384x4096_S8x2048x4096 = _
  rw [hw, Entry.rows_entry, Entry.weights_entry, Entry.bias_entry]
  exact Spec.arranged_eq_linear _ _ _ shapeCasts_S8x2048x4096_S16384x4096 transposes_S512x512x8x8_S512x8x512x8_1_3_0_2
    shapeCasts_S512x8x512x8_S4096x4096 bitsLt_bf16_f32 shapeCasts_S4096_S1x4096 shapeCasts_S16384x4096_S8x2048x4096

/-- Every weakly fair execution of the kernel's program terminates with the result buffer at the layer of the
    launch memory and the five arguments as launched: the generated frame run, its post read at the result
    buffer (which the host's last operation writes) and at the arguments (which nothing writes). -/
theorem run : θ_run defs (onTc (τ := τ) (main (F := Ideal))) ⟨m, fun _ => 0, ρ⟩ fun r => ∀ c : Dev nD,
      r.2.mem ((c.tc : Thread nD τ).loc main_v12) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.lean ====
/-
  The kernel and its reference compute one function on extended reals.

  Both programs decode a compressed weight matrix by the same six host operations and apply a dense layer
  `y = x · wᵀ + bias` with it. They differ in arrangement only. The reference builds `w` in output-major
  order and contracts the activations' feature axis against `w`'s second axis. The kernel builds the transposed,
  input-major matrix directly, merges batch and row of the activations, multiplies 256 rows at a time by the whole
  matrix on a grid of 64 points (narrowing both factors to a shorter float format first, which is the identity on
  extended reals), adds the bias row, and splits the rows of the result again. Entry `(o, i)` of `w` and entry
  `(i, o)` of the kernel's matrix are the same decoded number `D[o / 8, i / 8, o % 8, i % 8]`, so at every index
  both results are `Σ_i x[b, s, i] · D[o / 8, i / 8, o % 8, i % 8] + bias[o]` (`Spec.linear`): the same sum of the
  same products in the same order. No law of arithmetic is used, so the inputs' finiteness is never opened; the
  decoded array is carried as one unopened term, equal on both sides because the operations are the same.

  The three frame claims are the generated frame certificates (for the reference: its generated run with the
  result forgotten); the idealization rewrote nothing, so `preserves` is trivial.
-/
import proofs.«140671_j180388626975_2_alg».proof.Defs
import proofs.«140671_j180388626975_2_alg».proof.Proof.Gen.Kernel
import proofs.«140671_j180388626975_2_alg».proof.Proof.Gen.Kernel.Skeleton
import proofs.«140671_j180388626975_2_alg».proof.Proof.Gen.Kernel.Launch
import proofs.«140671_j180388626975_2_alg».proof.Proof.Gen.Kernel.Points
import proofs.«140671_j180388626975_2_alg».proof.Proof.Gen.Kernel.Frame
import proofs.«140671_j180388626975_2_alg».proof.Proof.Gen.KernelIdeal
import proofs.«140671_j180388626975_2_alg».proof.Proof.Gen.KernelIdeal.Skeleton
import proofs.«140671_j180388626975_2_alg».proof.Proof.Gen.KernelIdeal.Launch
import proofs.«140671_j180388626975_2_alg».proof.Proof.Gen.KernelIdeal.Points
import proofs.«140671_j180388626975_2_alg».proof.Proof.Gen.KernelIdeal.Frame
import proofs.«140671_j180388626975_2_alg».proof.Proof.Gen.ReferenceIdeal
import proofs.«140671_j180388626975_2_alg».proof.Proof.Gen.ReferenceIdeal.Read
import proofs.«140671_j180388626975_2_alg».proof.Proof.Gen.Pre_finite_inputs
import proofs.«140671_j180388626975_2_alg».proof.Proof.RefSide
import proofs.«140671_j180388626975_2_alg».proof.Proof.KernelRun
import Idealize.ShloMosaic.Adequacy
import Idealize.ShloMosaic.Init

noncomputable section

namespace Cert.Proof

open Idealize.ShloMosaic Idealize.SL.Sem

/-- The word-level kernel runs and keeps its arguments: the generated frame certificate. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs decode by the same operations: the kernel's decoded array and the reference's are one term. -/
theorem decoded_same (lat : FVec Ideal Cert.KernelIdeal.S262144x16 .f32) (decW : FVec Ideal Cert.KernelIdeal.S64x16 .f32)
    (decB : FVec Ideal Cert.KernelIdeal.S64 .f32) :
    Cert.ReferenceIdeal.Read.val_main_v5 (F := Ideal) lat decW decB = Cert.KernelIdeal.Entry.decoded lat decW decB := rfl

/-- From memories that agree on the five arguments both programs end with the layer of those arguments. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq_linear,
    (hagree c).1, (hagree c).2.1, (hagree c).2.2.1, (hagree c).2.2.2.1, (hagree c).2.2.2.2, decoded_same]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
